-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000 : Shape := ⟨1, ![500000]⟩
abbrev S128x64 : Shape := ⟨2, ![128, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000 : S_.BroadcastsInDim S500000 (![] : Fin 0 → Fin S500000.rank)
  reducesTo_S500000_S_d0 : S500000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S256 .f32) (main_arg9 : FVec F S256x256 .f32) (main_arg10 : FVec F S256 .f32) (main_arg11 : FVec F S256x128 .f32) (main_arg12 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_v48 main_v49 main_v50

def fn_part1 {F : FTy → Type} [FloatOps F] (main_arg5 : FVec F S64x64 .f32) (main_arg6 : FVec F S64 .f32) (main_arg7 : FVec F S64x256 .f32) (main_arg8 : FVec F S256 .f32) (main_arg9 : FVec F S256x256 .f32) (main_arg10 : FVec F S256 .f32) (main_arg11 : FVec F S256x128 .f32) (main_arg12 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x256 .f32 := Host.absf main_arg7
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x500000 32) (main_arg2 : FVec F S500000 .f32) (main_arg3 : FVec F S128x64 .f32) (main_arg4 : FVec F S64 .f32) (main_arg5 : FVec F S64x64 .f32) (main_arg6 : FVec F S64 .f32) (main_arg7 : FVec F S64x256 .f32) (main_arg8 : FVec F S256 .f32) (main_arg9 : FVec F S256x256 .f32) (main_arg10 : FVec F S256 .f32) (main_arg11 : FVec F S256x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000 .f32 := Host.absf main_arg2
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x500000 : Shape := ⟨2, ![2, 500000]⟩
abbrev S500000 : Shape := ⟨1, ![500000]⟩
abbrev S128x64 : Shape := ⟨2, ![128, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x500000 : Shape := ⟨2, ![1, 500000]⟩
abbrev S_ : Shape := ⟨0, ![]⟩
abbrev S500000x1 : Shape := ⟨2, ![500000, 1]⟩
abbrev S500000x128 : Shape := ⟨2, ![500000, 128]⟩
abbrev S1x64 : Shape := ⟨2, ![1, 64]⟩
abbrev S50000x64 : Shape := ⟨2, ![50000, 64]⟩
abbrev S2000x128 : Shape := ⟨2, ![2000, 128]⟩
abbrev S2000x64 : Shape := ⟨2, ![2000, 64]⟩
abbrev S500000x64 : Shape := ⟨2, ![500000, 64]⟩
abbrev S1x256 : Shape := ⟨2, ![1, 256]⟩
abbrev S1x128 : Shape := ⟨2, ![1, 128]⟩
abbrev S2000x256 : Shape := ⟨2, ![2000, 256]⟩

abbrev nBuf : Space → Nat
  | .hbm => 55
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S1x500000, .i32⟩
  | .hbm, ⟨14, _⟩ => ⟨S500000, .i32⟩
  | .hbm, ⟨15, _⟩ => ⟨S1x500000, .i32⟩
  | .hbm, ⟨16, _⟩ => ⟨S500000, .i32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x128, .f32⟩
  | .hbm, ⟨26, _⟩ => ⟨S_, .f32⟩
  | .hbm, ⟨27, _⟩ => ⟨S50000x128, .f32⟩
  | .hbm, ⟨28, _⟩ => ⟨S500000x1, .i32⟩
  | .hbm, ⟨29, _⟩ => ⟨S50000x128, .f32⟩
  | .hbm, ⟨30, _⟩ => ⟨S128x64, .bf16⟩
  | .hbm, ⟨31, _⟩ => ⟨S64x64, .bf16⟩
  | .hbm, ⟨32, _⟩ => ⟨S1x64, .f32⟩
  | .hbm, ⟨33, _⟩ => ⟨S1x64, .f32⟩
  | .hbm, ⟨34, _⟩ => ⟨S50000x64, .f32⟩
  | .hbm, ⟨35, _⟩ => ⟨S_, .i32⟩
  | .hbm, ⟨36, _⟩ => ⟨S500000, .i32⟩
  | .hbm, ⟨37, _⟩ => ⟨S500000, .i1⟩
  | .hbm, ⟨38, _⟩ => ⟨S_, .i32⟩
  | .hbm, ⟨39, _⟩ => ⟨S500000, .i32⟩
  | .hbm, ⟨40, _⟩ => ⟨S500000, .i32⟩
  | .hbm, ⟨41, _⟩ => ⟨S500000, .i32⟩
  | .hbm, ⟨42, _⟩ => ⟨S500000x1, .i32⟩
  | .hbm, ⟨43, _⟩ => ⟨S500000x64, .f32⟩
  | .hbm, ⟨44, _⟩ => ⟨S_, .f32⟩
  | .hbm, ⟨45, _⟩ => ⟨S50000x64, .f32⟩
  | .hbm, ⟨46, _⟩ => ⟨S500000x1, .i32⟩
  | .hbm, ⟨47, _⟩ => ⟨S50000x64, .f32⟩
  | .hbm, ⟨48, _⟩ => ⟨S64x256, .bf16⟩
  | .hbm, ⟨49, _⟩ => ⟨S256x256, .bf16⟩
  | .hbm, ⟨50, _⟩ => ⟨S256x128, .bf16⟩
  | .hbm, ⟨51, _⟩ => ⟨S1x256, .f32⟩
  | .hbm, ⟨52, _⟩ => ⟨S1x256, .f32⟩
  | .hbm, ⟨53, _⟩ => ⟨S1x128, .f32⟩
  | .hbm, ⟨54, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x64, .bf16⟩
  | .local _ .vmem, ⟨5, _⟩ => ⟨S1x64, .f32⟩
  | .local _ .vmem, ⟨6, _⟩ => ⟨S64x64, .bf16⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S64x256, .bf16⟩
  | .local _ .vmem, ⟨15, _⟩ => ⟨S1x256, .f32⟩
  | .local _ .vmem, ⟨16, _⟩ => ⟨S256x256, .bf16⟩
  | .local _ .vmem, ⟨17, _⟩ => ⟨S1x256, .f32⟩
  | .local _ .vmem, ⟨18, _⟩ => ⟨S256x128, .bf16⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bitsLt_bf16_f32 : FTy.bits .bf16 < FTy.bits .f32
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  shapeCasts_S256_S1x256 : S256.ShapeCasts S1x256
  shapeCasts_S128_S1x128 : S128.ShapeCasts S1x128
  shapeCasts_S2000x64_S2000x64 : S2000x64.ShapeCasts S2000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  gather_S50000x64_S500000x1_S500000x64_1_0_n_n_0_1_164_wf : GatherDims.WF S50000x64 S500000x1 S500000x64 [1] [0] [] [0] [] 1 ![1, 64]
  scatter_S50000x64_S500000x1_S500000x64_1_0_0_1_wf : ScatterDims.WF S50000x64 S500000x1 S500000x64 [1] [0] [0] 1
  dot_S2000x64_S64x256_S2000x256_1_0_0_1_n_n_wf : DotDims.WF S2000x64 S64x256 S2000x256 [1] [0] [0] [1] [] []
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .bf16 = 32 ∨ (Rect.block (s := S128x64) S128x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S50000x64.size a
  hwx0_6 : ∀ i : grid0.Coords, EltTy.bits .f32 = 32 ∨ (Rect.block (s := S50000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x256.size a
  hwx1_2 : ∀ i : grid1.Coords, EltTy.bits .bf16 = 32 ∨ (Rect.block (s := S64x256) S64x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S256x128.size a
  hwx1_6 : ∀ i : grid1.Coords, EltTy.bits .bf16 = 32 ∨ (Rect.block (s := S256x128) S256x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S64x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S256x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v35) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000 : Shape := ⟨1, ![500000]⟩
abbrev S128x64 : Shape := ⟨2, ![128, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x500000 : Shape := ⟨2, ![1, 500000]⟩
abbrev S_ : Shape := ⟨0, ![]⟩
abbrev S500000x1 : Shape := ⟨2, ![500000, 1]⟩
abbrev S500000x128 : Shape := ⟨2, ![500000, 128]⟩
abbrev S50000x64 : Shape := ⟨2, ![50000, 64]⟩
abbrev S1x64 : Shape := ⟨2, ![1, 64]⟩
abbrev S500000x64 : Shape := ⟨2, ![500000, 64]⟩
abbrev S50000x256 : Shape := ⟨2, ![50000, 256]⟩
abbrev S1x256 : Shape := ⟨2, ![1, 256]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S1x500000, .i32⟩
  | .hbm, ⟨14, _⟩ => ⟨S500000, .i32⟩
  | .hbm, ⟨15, _⟩ => ⟨S1x500000, .i32⟩
  | .hbm, ⟨16, _⟩ => ⟨S500000, .i32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x128, .f32⟩
  | .hbm, ⟨26, _⟩ => ⟨S_, .f32⟩
  | .hbm, ⟨27, _⟩ => ⟨S50000x128, .f32⟩
  | .hbm, ⟨28, _⟩ => ⟨S500000x1, .i32⟩
  | .hbm, ⟨29, _⟩ => ⟨S50000x128, .f32⟩
  | .hbm, ⟨30, _⟩ => ⟨S50000x128, .f32⟩
  | .hbm, ⟨31, _⟩ => ⟨S50000x64, .f32⟩
  | .hbm, ⟨32, _⟩ => ⟨S1x64, .f32⟩
  | .hbm, ⟨33, _⟩ => ⟨S50000x64, .f32⟩
  | .hbm, ⟨34, _⟩ => ⟨S50000x64, .f32⟩
  | .hbm, ⟨35, _⟩ => ⟨S_, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S1x64, .f32⟩
  | .hbm, ⟨40, _⟩ => ⟨S50000x64, .f32⟩
  | .hbm, ⟨41, _⟩ => ⟨S50000x64, .f32⟩
  | .hbm, ⟨42, _⟩ => ⟨S_, .f32⟩
  | .hbm, ⟨43, _⟩ => ⟨S50000x64, .f32⟩
  | .hbm, ⟨44, _⟩ => ⟨S50000x64, .f32⟩
  | .hbm, ⟨45, _⟩ => ⟨S_, .i32⟩
  | .hbm, ⟨46, _⟩ => ⟨S500000, .i32⟩
  | .hbm, ⟨47, _⟩ => ⟨S500000, .i1⟩
  | .hbm, ⟨48, _⟩ => ⟨S_, .i32⟩
  | .hbm, ⟨49, _⟩ => ⟨S500000, .i32⟩
  | .hbm, ⟨50, _⟩ => ⟨S500000, .i32⟩
  | .hbm, ⟨51, _⟩ => ⟨S500000, .i32⟩
  | .hbm, ⟨52, _⟩ => ⟨S500000x1, .i32⟩
  | .hbm, ⟨53, _⟩ => ⟨S500000x64, .f32⟩
  | .hbm, ⟨54, _⟩ => ⟨S_, .f32⟩
  | .hbm, ⟨55, _⟩ => ⟨S50000x64, .f32⟩
  | .hbm, ⟨56, _⟩ => ⟨S500000x1, .i32⟩
  | .hbm, ⟨57, _⟩ => ⟨S50000x64, .f32⟩
  | .hbm, ⟨58, _⟩ => ⟨S50000x64, .f32⟩
  | .hbm, ⟨59, _⟩ => ⟨S50000x256, .f32⟩
  | .hbm, ⟨60, _⟩ => ⟨S1x256, .f32⟩
  | .hbm, ⟨61, _⟩ => ⟨S50000x256, .f32⟩
  | .hbm, ⟨62, _⟩ => ⟨S50000x256, .f32⟩
  | .hbm, ⟨63, _⟩ => ⟨S_, .f32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  gather_S50000x64_S500000x1_S500000x64_1_0_n_n_0_1_164_wf : GatherDims.WF S50000x64 S500000x1 S500000x64 [1] [0] [] [0] [] 1 ![1, 64]
  scatter_S50000x64_S500000x1_S500000x64_1_0_0_1_wf : ScatterDims.WF S50000x64 S500000x1 S500000x64 [1] [0] [0] 1
  dot_S50000x64_S64x256_S50000x256_1_0_0_1_n_n_wf : DotDims.WF S50000x64 S64x256 S50000x256 [1] [0] [0] [1] [] []
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.GinSpec.lean ====
/-
  The two perceptrons of a two-layer graph isomorphism network, row by row, on the extended reals.

  Each layer of the network first adds to every node's feature row the sum of its in-neighbours' rows (the aggregate, which
  this file takes as given: a second matrix of the same shape) and then sends the row through a small perceptron.  A
  perceptron never mixes rows: entry (r, q) of its result is a function of row r of the features, row r of the aggregate and
  the weights.  That function is written here once per layer (`mlp1Row`, `mlp2Row`) over plain row vectors, and the
  matrix form (`mlp1`, `mlp2`) applies it to every row of an [n, ·] pair, for any number of rows n — so the same
  definition describes a block of rows and the whole array.

    layer 1:  relu( relu( (x_r + a_r) · Wa + ba ) · Wb + bb )                          128 → 64 → 64
    layer 2:  ( ( relu( (h_r + a_r) · Wa + ba ) · Wb + bb ) · Wl + bl )                 64 → 256 → 256 → 128

  An affine map is  v ↦ Σ_k v_k · W(k, ·) + b  (`dense`), relu is  max · 0.
-/
import Idealize.ShloMosaic.PureOps.Ideal
import Idealize.ShloMosaic.Lib.ValueIdx

noncomputable section

namespace Cert.Gin

open Idealize.ShloMosaic Idealize.ShloMosaic.ValueIdx

/-- One affine layer applied to a row vector: entry q is  Σ_k v_k · W(k, q) + b_q. -/
def dense {K N : ℕ} (v : Fin K → EReal) (W : (⟨2, ![K, N]⟩ : Shape).Idx → EReal) (b : (⟨1, ![N]⟩ : Shape).Idx → EReal)
    (q : Fin N) : EReal :=
  (∑ k : Fin K, v k * W (ix2 k q)) + b (ix1 q)

/-- The first layer's perceptron on one row: features xr plus aggregate ar, two affine maps, a relu after each. -/
def mlp1Row (xr ar : Fin 128 → EReal) (wa : (⟨2, ![128, 64]⟩ : Shape).Idx → EReal) (ba : (⟨1, ![64]⟩ : Shape).Idx → EReal)
    (wb : (⟨2, ![64, 64]⟩ : Shape).Idx → EReal) (bb : (⟨1, ![64]⟩ : Shape).Idx → EReal) (q : Fin 64) : EReal :=
  max (dense (fun k => max (dense (fun j => xr j + ar j) wa ba k) 0) wb bb q) 0

/-- The second layer's perceptron followed by the latent projection, on one row: three affine maps, a relu after the first
    only. -/
def mlp2Row (hr ar : Fin 64 → EReal) (wa : (⟨2, ![64, 256]⟩ : Shape).Idx → EReal) (ba : (⟨1, ![256]⟩ : Shape).Idx → EReal)
    (wb : (⟨2, ![256, 256]⟩ : Shape).Idx → EReal) (bb : (⟨1, ![256]⟩ : Shape).Idx → EReal)
    (wl : (⟨2, ![256, 128]⟩ : Shape).Idx → EReal) (bl : (⟨1, ![128]⟩ : Shape).Idx → EReal) (q : Fin 128) : EReal :=
  dense (fun k' => dense (fun k => max (dense (fun j => hr j + ar j) wa ba k) 0) wb bb k') wl bl q

variable {n : ℕ}

/-- The first layer on every row of an [n, 128] pair. -/
def mlp1 (x a : (⟨2, ![n, 128]⟩ : Shape).Idx → EReal) (wa : (⟨2, ![128, 64]⟩ : Shape).Idx → EReal)
    (ba : (⟨1, ![64]⟩ : Shape).Idx → EReal) (wb : (⟨2, ![64, 64]⟩ : Shape).Idx → EReal) (bb : (⟨1, ![64]⟩ : Shape).Idx → EReal) :
    (⟨2, ![n, 64]⟩ : Shape).Idx → EReal := fun i =>
  mlp1Row (fun j => x (ix2 (⟨(i 0).val, idx2_lt0 i⟩ : Fin n) j)) (fun j => a (ix2 (⟨(i 0).val, idx2_lt0 i⟩ : Fin n) j))
    wa ba wb bb ⟨(i 1).val, idx2_lt1 i⟩

/-- The second layer and the projection on every row of an [n, 64] pair. -/
def mlp2 (h a : (⟨2, ![n, 64]⟩ : Shape).Idx → EReal) (wa : (⟨2, ![64, 256]⟩ : Shape).Idx → EReal)
    (ba : (⟨1, ![256]⟩ : Shape).Idx → EReal) (wb : (⟨2, ![256, 256]⟩ : Shape).Idx → EReal) (bb : (⟨1, ![256]⟩ : Shape).Idx → EReal)
    (wl : (⟨2, ![256, 128]⟩ : Shape).Idx → EReal) (bl : (⟨1, ![128]⟩ : Shape).Idx → EReal) :
    (⟨2, ![n, 128]⟩ : Shape).Idx → EReal := fun i =>
  mlp2Row (fun j => h (ix2 (⟨(i 0).val, idx2_lt0 i⟩ : Fin n) j)) (fun j => a (ix2 (⟨(i 0).val, idx2_lt0 i⟩ : Fin n) j))
    wa ba wb bb wl bl ⟨(i 1).val, idx2_lt1 i⟩

/-- Entry (p, q) of the first layer depends on row p only. -/
theorem mlp1_apply (x a : (⟨2, ![n, 128]⟩ : Shape).Idx → EReal) (wa : (⟨2, ![128, 64]⟩ : Shape).Idx → EReal)
    (ba : (⟨1, ![64]⟩ : Shape).Idx → EReal) (wb : (⟨2, ![64, 64]⟩ : Shape).Idx → EReal) (bb : (⟨1, ![64]⟩ : Shape).Idx → EReal)
    (p : Fin n) (q : Fin 64) :
    mlp1 x a wa ba wb bb (ix2 p q) = mlp1Row (fun j => x (ix2 p j)) (fun j => a (ix2 p j)) wa ba wb bb q := rfl

/-- Entry (p, q) of the second layer depends on row p only. -/
theorem mlp2_apply (h a : (⟨2, ![n, 64]⟩ : Shape).Idx → EReal) (wa : (⟨2, ![64, 256]⟩ : Shape).Idx → EReal)
    (ba : (⟨1, ![256]⟩ : Shape).Idx → EReal) (wb : (⟨2, ![256, 256]⟩ : Shape).Idx → EReal) (bb : (⟨1, ![256]⟩ : Shape).Idx → EReal)
    (wl : (⟨2, ![256, 128]⟩ : Shape).Idx → EReal) (bl : (⟨1, ![128]⟩ : Shape).Idx → EReal) (p : Fin n) (q : Fin 128) :
    mlp2 h a wa ba wb bb wl bl (ix2 p q) = mlp2Row (fun j => h (ix2 p j)) (fun j => a (ix2 p j)) wa ba wb bb wl bl q := rfl

end Cert.Gin

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibRowBlocks.lean ====
/-
  Consecutive row blocks of a matrix of extended reals, and one-row / one-column matrices read as vectors.

  A kernel gridded over the rows of an [n, c] array sees m consecutive rows at a time: block t holds rows
  t·m … t·m + m − 1 (`rowsAt`).  An index of the whole array whose row is t·m + p and whose column is q is the block's
  index (p, q) moved to its place (`idx_of_block`): the step between a function computed on one block and the same function
  of the whole arrays, when an entry depends on its own row only.  A bias carried as a [1, d] row and a per-row scalar carried
  as an [n, 1] column are read back as vectors by `rowOf` and `colOf`.
-/
import Idealize.ShloMosaic.PureOps.Ideal
import Idealize.ShloMosaic.Lib.ValueIdx

noncomputable section

namespace Cert.RowBlocks

open Idealize.ShloMosaic Idealize.ShloMosaic.ValueIdx

variable {n m d c : ℕ}

/-- Rows t·m … t·m + m − 1 of an [n, c] matrix. -/
def rowsAt (m t : ℕ) (h : t * m + m ≤ n) (A : (⟨2, ![n, c]⟩ : Shape).Idx → EReal) : (⟨2, ![m, c]⟩ : Shape).Idx → EReal :=
  fun y => A (ix2 ⟨t * m + (y 0).val, by have := idx2_lt0 y; omega⟩ (y 1))

theorem rowsAt_apply (t : ℕ) (h : t * m + m ≤ n) (A : (⟨2, ![n, c]⟩ : Shape).Idx → EReal) (p : Fin m) (k : Fin c) :
    rowsAt m t h A (ix2 p k) = A (ix2 ⟨t * m + p.val, by have := p.isLt; omega⟩ k) := rfl

/-- The one row of a [1, d] matrix as a vector. -/
def rowOf (B : (⟨2, ![1, d]⟩ : Shape).Idx → EReal) : (⟨1, ![d]⟩ : Shape).Idx → EReal := fun j => B (ix2 (0 : Fin 1) (j 0))
/-- The one column of an [n, 1] matrix as a vector. -/
def colOf (C : (⟨2, ![n, 1]⟩ : Shape).Idx → EReal) : (⟨1, ![n]⟩ : Shape).Idx → EReal := fun j => C (ix2 (j 0) (0 : Fin 1))

theorem rowOf_apply (B : (⟨2, ![1, d]⟩ : Shape).Idx → EReal) (q : Fin d) : rowOf B (ix1 q) = B (ix2 (0 : Fin 1) q) := rfl
theorem colOf_apply (C : (⟨2, ![n, 1]⟩ : Shape).Idx → EReal) (p : Fin n) : colOf C (ix1 p) = C (ix2 p (0 : Fin 1)) := rfl

/-- An index of the whole matrix that sits in block t at the block's index (p, q). -/
theorem idx_of_block (t : ℕ) (h : t * m + m ≤ n) (p : Fin m) (q : Fin d) (i : (⟨2, ![n, d]⟩ : Shape).Idx)
    (h0 : (i 0).val = t * m + p.val) (h1 : (i 1).val = q.val) :
    i = ix2 ⟨t * m + p.val, by have := p.isLt; omega⟩ q :=
  funext fun a => Fin.ext (by
    match a with
    | ⟨0, _⟩ => exact h0
    | ⟨1, _⟩ => exact h1)

end Cert.RowBlocks

end
-- ==== Proof.Body1.lean ====
/-
  The first kernel's body at an entry.

  The body loads a block of 2000 feature rows and the same rows of the aggregate, adds them, multiplies by the first weight
  matrix (a plain [2000,128] × [128,64] product into the zero accumulator), adds the bias row, clips at zero, multiplies by
  the second weight matrix, adds its bias row and clips again; the roundings to bf16 in between are the identity on the
  extended reals.  Entry (p, q) of what it stores is therefore the first layer's perceptron of row p of the two blocks.
-/
import proofs.«134292_j13211319402646_1_alg».proof.Proof.Gen.KernelIdeal.Skeleton
import proofs.«134292_j13211319402646_1_alg».proof.Proof.GinSpec
import proofs.«134292_j13211319402646_1_alg».proof.Proof.LibPlainMatmul
import proofs.«134292_j13211319402646_1_alg».proof.Proof.LibRowBlocks
import Idealize.ShloMosaic.Lib.Pipeline.Value
import Idealize.ShloMosaic.Lib.ValueLayout

noncomputable section

namespace Cert.KernelIdeal.Body

open Idealize.ShloMosaic Idealize.ShloMosaic.ValueIdx Cert.KernelIdeal Cert.KernelIdeal.Gen Cert.Gin Cert.RowBlocks

/-- The first product of the first body at (p, q). -/
theorem mm_128_64 (l : FVec Ideal S2000x128 .bf16) (r : FVec Ideal S128x64 .bf16) (p : Fin 2000) (q : Fin 64) :
    matmul dot_S2000x128_S128x64_S2000x64_1_0_0_1_n_n none l r (constant S2000x64 .f32 0x00000000#32) (ix2 p q)
      = ∑ k : Fin 128, l (ix2 p k) * r (ix2 k q) :=
  Cert.PlainMatmul.matmul_zero_apply dot_S2000x128_S128x64_S2000x64_1_0_0_1_n_n_wf none l r p q

/-- The second product of the first body at (p, q). -/
theorem mm_64_64 (l : FVec Ideal S2000x64 .bf16) (r : FVec Ideal S64x64 .bf16) (p : Fin 2000) (q : Fin 64) :
    matmul dot_S2000x64_S64x64_S2000x64_1_0_0_1_n_n none l r (constant S2000x64 .f32 0x00000000#32) (ix2 p q)
      = ∑ k : Fin 64, l (ix2 p k) * r (ix2 k q) :=
  Cert.PlainMatmul.matmul_zero_apply dot_S2000x64_S64x64_S2000x64_1_0_0_1_n_n_wf none l r p q

/-- A [1, 64] bias row laid over 2000 rows reads, at (p, q), the row's entry q. -/
theorem bias64 (b : FVec Ideal S1x64 .f32) (p : Fin 2000) (q : Fin 64) :
    broadcastTo S2000x64 b broadcasts_S1x64_S2000x64 (ix2 p q) = rowOf b (ix1 q) :=
  broadcastTo_1b_ab_apply b broadcasts_S1x64_S2000x64 p q

/-- Entry (p, q) of the first body's stored value is the first layer's perceptron of row p of its two blocks. -/
theorem pay1_apply (x0 x1 : FVec Ideal S2000x128 .f32) (w3 : FVec Ideal S128x64 .bf16) (b4 : FVec Ideal S1x64 .f32)
    (w5 : FVec Ideal S64x64 .bf16) (b6 : FVec Ideal S1x64 .f32) (p : Fin 2000) (q : Fin 64) :
    k0_pay1 (F := Ideal) x0 x1 w3 b4 w5 b6 (ix2 p q)
      = mlp1Row (fun j => x0 (ix2 p j)) (fun j => x1 (ix2 p j)) w3 (rowOf b4) w5 (rowOf b6) q := by
  unfold k0_pay1
  simp only [shapeCast_self, maximumf_apply, addf_apply, mm_64_64, mm_128_64, bias64, truncf_apply, broadcast_apply]
  simp only [Ideal.ofBits_def, Ideal.ofBits_zero_f32]
  rfl

end Cert.KernelIdeal.Body

end
-- ==== Proof.Region1.lean ====
/-
  The first region's output array.

  The first kernel runs on 25 grid points; point t works on rows 2000·t … 2000·t + 1999: it fetches those rows of the
  features and of the aggregate, the two weight matrices and the two bias rows whole, and writes back those rows of the
  output.  What point t writes back is the first layer's perceptron of its rows, and the perceptron of a block of rows is the
  block of rows of the perceptron of the whole arrays (an entry depends on its own row only); the 25 blocks tile the 50000
  rows, so after the region the output array is the first layer's perceptron of the arrays the region was entered with.
-/
import proofs.«134292_j13211319402646_1_alg».proof.Proof.Gen.KernelIdeal.Frame
import proofs.«134292_j13211319402646_1_alg».proof.Proof.Body1
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.KernelIdeal.Body Cert.Gin Cert.RowBlocks

/-- The body's stored value on the rows of block t, at a block index y, is the whole arrays' perceptron at the array index i
    that sits at y in block t. -/
theorem pay1_block (t : ℕ) (h : t * 2000 + 2000 ≤ 50000) (X A : S50000x128.Idx → EReal) (w3 : FVec Ideal S128x64 .bf16)
    (b4 : FVec Ideal S1x64 .f32) (w5 : FVec Ideal S64x64 .bf16) (b6 : FVec Ideal S1x64 .f32) (y : S2000x64.Idx)
    (i : S50000x64.Idx) (h0 : (i 0).val = t * 2000 + (y 0).val) (h1 : (i 1).val = (y 1).val) :
    k0_pay1 (F := Ideal) (rowsAt 2000 t h X) (rowsAt 2000 t h A) w3 b4 w5 b6 y
      = mlp1 X A w3 (rowOf b4) w5 (rowOf b6) i := by
  obtain ⟨p, q, rfl⟩ : ∃ (p : Fin 2000) (q : Fin 64), y = ix2 p q := ⟨y 0, y 1, eq_ix2 y⟩
  rw [idx_of_block t h p q i h0 h1, pay1_apply, mlp1_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 grid points: the row-blocked windows (features, aggregate, output) are at
    block (t, 0), the weights and biases at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem rows_le (t : Fin cfg0.N) : t.val * 2000 + 2000 ≤ 50000 := by
  have ht : t.val < 25 := t.isLt
  omega

/-- The first layer's perceptron of the arrays the region is entered with. -/
abbrev G (c : Dev nD) : S50000x64.Idx → EReal :=
  mlp1 (V c main_arg0) (V c main_v13) (V c main_v14) (rowOf (V c main_v16)) (V c main_v15) (rowOf (V c main_v17))

/-- The features' block at point t is rows 2000·t … of the features. -/
theorem blk_x (c : Dev nD) (t : Fin cfg0.N) : iblk0 V c 0 t = rowsAt 2000 t.val (rows_le t) (V c main_arg0) := by
  obtain ⟨e0, e1, -⟩ := idx_facts t
  funext y
  show V c main_arg0 (((cfg0.win 0).blk t).view.emb y) = V c main_arg0 _
  refine congrArg (V c main_arg0) (funext fun a => Fin.ext ?_)
  match a with
  | ⟨0, _⟩ => show win0_0.index t (0 : Fin 2) * 2000 + 1 * (y 0).val = t.val * 2000 + (y 0).val; rw [e0]; omega
  | ⟨1, _⟩ => show win0_0.index t (1 : Fin 2) * 128 + 1 * (y 1).val = (y 1).val; rw [e1]; omega

/-- The aggregate's block at point t is rows 2000·t … of the aggregate. -/
theorem blk_a (c : Dev nD) (t : Fin cfg0.N) : iblk0 V c 1 t = rowsAt 2000 t.val (rows_le t) (V c main_v13) := by
  obtain ⟨-, -, e0, e1, -⟩ := idx_facts t
  funext y
  show V c main_v13 (((cfg0.win 1).blk t).view.emb y) = V c main_v13 _
  refine congrArg (V c main_v13) (funext fun a => Fin.ext ?_)
  match a with
  | ⟨0, _⟩ => show win0_1.index t (0 : Fin 2) * 2000 + 1 * (y 0).val = t.val * 2000 + (y 0).val; rw [e0]; omega
  | ⟨1, _⟩ => show win0_1.index t (1 : Fin 2) * 128 + 1 * (y 1).val = (y 1).val; rw [e1]; omega

/-- The first weight matrix is fetched whole. -/
theorem blk_wa (c : Dev nD) (t : Fin cfg0.N) : iblk0 V c 2 t = V c main_v14 := by
  obtain ⟨-, -, -, -, e0, e1, -⟩ := idx_facts t
  funext y
  show V c main_v14 (((cfg0.win 2).blk t).view.emb y) = V c main_v14 y
  refine congrArg (V c main_v14) (funext fun a => Fin.ext ?_)
  match a with
  | ⟨0, _⟩ => show win0_2.index t (0 : Fin 2) * 128 + 1 * (y 0).val = (y 0).val; rw [e0]; omega
  | ⟨1, _⟩ => show win0_2.index t (1 : Fin 2) * 64 + 1 * (y 1).val = (y 1).val; rw [e1]; omega

/-- The first bias row is fetched whole. -/
theorem blk_ba (c : Dev nD) (t : Fin cfg0.N) : iblk0 V c 3 t = V c main_v16 := by
  obtain ⟨-, -, -, -, -, -, e0, e1, -⟩ := idx_facts t
  funext y
  show V c main_v16 (((cfg0.win 3).blk t).view.emb y) = V c main_v16 y
  refine congrArg (V c main_v16) (funext fun a => Fin.ext ?_)
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- The second weight matrix is fetched whole. -/
theorem blk_wb (c : Dev nD) (t : Fin cfg0.N) : iblk0 V c 4 t = V c main_v15 := by
  obtain ⟨-, -, -, -, -, -, -, -, e0, e1, -⟩ := idx_facts t
  funext y
  show V c main_v15 (((cfg0.win 4).blk t).view.emb y) = V c main_v15 y
  refine congrArg (V c main_v15) (funext fun a => Fin.ext ?_)
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- The second bias row is fetched whole. -/
theorem blk_bb (c : Dev nD) (t : Fin cfg0.N) : iblk0 V c 5 t = V c main_v17 := by
  obtain ⟨-, -, -, -, -, -, -, -, -, -, e0, e1, -⟩ := idx_facts t
  funext y
  show V c main_v17 (((cfg0.win 5).blk t).view.emb y) = V c main_v17 y
  refine congrArg (V c main_v17) (funext fun a => Fin.ext ?_)
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-- What point t writes back is block t of the perceptron of the whole arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x64) hz, View.ld_unit_zero (S := S1x64) hz,
    View.ld_unit_zero (S := S64x64) hz]
  rw [blk_x, blk_a, blk_wa, blk_ba, blk_wb, blk_bb]
  obtain ⟨-, -, -, -, -, -, -, -, -, -, -, -, e0, e1⟩ := idx_facts t
  funext y
  refine pay1_block t.val (rows_le t) (V c main_arg0) (V c main_v13) (V c main_v14) (V c main_v16) (V c main_v15)
    (V c main_v17) y (((cfg0.win 6).blk t).view.emb y) ?_ ?_
  · show win0_6.index t (0 : Fin 2) * 2000 + 1 * (y 0).val = t.val * 2000 + (y 0).val
    rw [e0]; omega
  · show win0_6.index t (1 : Fin 2) * 64 + 1 * (y 1).val = (y 1).val
    rw [e1]; omega

/-- An index of the output array is in point t's block iff each coordinate is in the block's range on its axis. -/
theorem mem_blk (t : Fin cfg0.N) (i : S50000x64.Idx) :
    i ∈ ((cfg0.win 6).blk t).view.set ↔ ∀ a : Fin 2, win0_6.index t a * S2000x64.size a ≤ (i a).val
      ∧ (i a).val < win0_6.index t a * S2000x64.size a + S2000x64.size a := by
  show i ∈ ((View.whole main_v18).slice (win0_6.rect t)).set ↔ _
  rw [View.set_slice_whole, Rect.mem_set_unit]
  exact Iff.rfl

/-- The 25 blocks tile the output: row r is in block r / 2000. -/
theorem cover (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  let t : Fin cfg0.N := ⟨(i 0).val / 2000, by show (i 0).val / 2000 < 25; omega⟩
  have htv : t.val = (i 0).val / 2000 := rfl
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 2000 ≤ (i 0).val ∧ (i 0).val < win0_6.index t (0 : Fin 2) * 2000 + 2000
    rw [e0, htv]; omega
  | ⟨1, _⟩ =>
    show win0_6.index t (1 : Fin 2) * 64 ≤ (i 1).val ∧ (i 1).val < win0_6.index t (1 : Fin 2) * 64 + 64
    rw [e1]; omega

/-- After the region the output array is the first layer's perceptron of the arrays the region was entered with. -/
theorem final (c : Dev nD) : (dat0 V c).arrAt 6 cfg0.N = G V c :=
  (dat0 V c).arrAt_eq_of_cover 6 (G V c) (fun t _ => flushed_eq V c t) (cover)

end Cert.KernelIdeal.Region1

end
-- ==== Proof.Body2.lean ====
/-
  The second kernel's body at an entry.

  The body loads a block of 2000 rows of the first layer's output and the same rows of their aggregate, adds them, and applies
  three affine maps in a row — [2000,64] × [64,256], [2000,256] × [256,256], [2000,256] × [256,128], each a plain product
  into the zero accumulator plus a bias row — clipping at zero after the first only; the roundings to bf16 in between are the
  identity on the extended reals.  Entry (p, q) of what it stores is the second layer's perceptron and projection of row p.
-/
import proofs.«134292_j13211319402646_1_alg».proof.Proof.Gen.KernelIdeal.Skeleton
import proofs.«134292_j13211319402646_1_alg».proof.Proof.GinSpec
import proofs.«134292_j13211319402646_1_alg».proof.Proof.LibPlainMatmul
import proofs.«134292_j13211319402646_1_alg».proof.Proof.LibRowBlocks
import Idealize.ShloMosaic.Lib.Pipeline.Value
import Idealize.ShloMosaic.Lib.ValueLayout

noncomputable section

namespace Cert.KernelIdeal.Body

open Idealize.ShloMosaic Idealize.ShloMosaic.ValueIdx Cert.KernelIdeal Cert.KernelIdeal.Gen Cert.Gin Cert.RowBlocks

/-- The first product of the second body at (p, q). -/
theorem mm_64_256 (l : FVec Ideal S2000x64 .bf16) (r : FVec Ideal S64x256 .bf16) (p : Fin 2000) (q : Fin 256) :
    matmul dot_S2000x64_S64x256_S2000x256_1_0_0_1_n_n none l r (constant S2000x256 .f32 0x00000000#32) (ix2 p q)
      = ∑ k : Fin 64, l (ix2 p k) * r (ix2 k q) :=
  Cert.PlainMatmul.matmul_zero_apply dot_S2000x64_S64x256_S2000x256_1_0_0_1_n_n_wf none l r p q

/-- The second product of the second body at (p, q). -/
theorem mm_256_256 (l : FVec Ideal S2000x256 .bf16) (r : FVec Ideal S256x256 .bf16) (p : Fin 2000) (q : Fin 256) :
    matmul dot_S2000x256_S256x256_S2000x256_1_0_0_1_n_n none l r (constant S2000x256 .f32 0x00000000#32) (ix2 p q)
      = ∑ k : Fin 256, l (ix2 p k) * r (ix2 k q) :=
  Cert.PlainMatmul.matmul_zero_apply dot_S2000x256_S256x256_S2000x256_1_0_0_1_n_n_wf none l r p q

/-- The third product of the second body at (p, q). -/
theorem mm_256_128 (l : FVec Ideal S2000x256 .bf16) (r : FVec Ideal S256x128 .bf16) (p : Fin 2000) (q : Fin 128) :
    matmul dot_S2000x256_S256x128_S2000x128_1_0_0_1_n_n none l r (constant S2000x128 .f32 0x00000000#32) (ix2 p q)
      = ∑ k : Fin 256, l (ix2 p k) * r (ix2 k q) :=
  Cert.PlainMatmul.matmul_zero_apply dot_S2000x256_S256x128_S2000x128_1_0_0_1_n_n_wf none l r p q

/-- A [1, 256] bias row laid over 2000 rows reads, at (p, q), the row's entry q. -/
theorem bias256 (b : FVec Ideal S1x256 .f32) (p : Fin 2000) (q : Fin 256) :
    broadcastTo S2000x256 b broadcasts_S1x256_S2000x256 (ix2 p q) = rowOf b (ix1 q) :=
  broadcastTo_1b_ab_apply b broadcasts_S1x256_S2000x256 p q

/-- A [1, 128] bias row laid over 2000 rows reads, at (p, q), the row's entry q. -/
theorem bias128 (b : FVec Ideal S1x128 .f32) (p : Fin 2000) (q : Fin 128) :
    broadcastTo S2000x128 b broadcasts_S1x128_S2000x128 (ix2 p q) = rowOf b (ix1 q) :=
  broadcastTo_1b_ab_apply b broadcasts_S1x128_S2000x128 p q

/-- Entry (p, q) of the second body's stored value is the second layer's perceptron and projection of row p of its two
    blocks. -/
theorem pay2_apply (x0 x1 : FVec Ideal S2000x64 .f32) (w3 : FVec Ideal S64x256 .bf16) (b4 : FVec Ideal S1x256 .f32)
    (w5 : FVec Ideal S256x256 .bf16) (b6 : FVec Ideal S1x256 .f32) (w7 : FVec Ideal S256x128 .bf16) (b8 : FVec Ideal S1x128 .f32)
    (p : Fin 2000) (q : Fin 128) :
    k1_pay1 (F := Ideal) x0 x1 w3 b4 w5 b6 w7 b8 (ix2 p q)
      = mlp2Row (fun j => x0 (ix2 p j)) (fun j => x1 (ix2 p j)) w3 (rowOf b4) w5 (rowOf b6) w7 (rowOf b8) q := by
  unfold k1_pay1
  simp only [shapeCast_self, maximumf_apply, addf_apply, mm_256_128, mm_256_256, mm_64_256, bias128, bias256, truncf_apply,
    broadcast_apply]
  simp only [Ideal.ofBits_def, Ideal.ofBits_zero_f32]
  rfl

end Cert.KernelIdeal.Body

end
-- ==== Proof.Region2.lean ====
/-
  The second region's output array.

  The second kernel runs on 25 grid points; point t works on rows 2000·t … 2000·t + 1999: it fetches those rows of the first
  layer's output and of their aggregate, the three weight matrices and the three bias rows whole, and writes back those rows
  of the result.  What point t writes back is the second layer's perceptron and projection of its rows, which is the block of
  rows of the same function of the whole arrays; the 25 blocks tile the 50000 rows, so after the region the result array is
  that function of the arrays the region was entered with.
-/
import proofs.«134292_j13211319402646_1_alg».proof.Proof.Gen.KernelIdeal.Frame
import proofs.«134292_j13211319402646_1_alg».proof.Proof.Body2
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen Cert.KernelIdeal.Body Cert.Gin Cert.RowBlocks

/-- The body's stored value on the rows of block t, at a block index y, is the whole arrays' function at the array index i
    that sits at y in block t. -/
theorem pay2_block (t : ℕ) (h : t * 2000 + 2000 ≤ 50000) (H A : S50000x64.Idx → EReal) (w3 : FVec Ideal S64x256 .bf16)
    (b4 : FVec Ideal S1x256 .f32) (w5 : FVec Ideal S256x256 .bf16) (b6 : FVec Ideal S1x256 .f32)
    (w7 : FVec Ideal S256x128 .bf16) (b8 : FVec Ideal S1x128 .f32) (y : S2000x128.Idx)
    (i : S50000x128.Idx) (h0 : (i 0).val = t * 2000 + (y 0).val) (h1 : (i 1).val = (y 1).val) :
    k1_pay1 (F := Ideal) (rowsAt 2000 t h H) (rowsAt 2000 t h A) w3 b4 w5 b6 w7 b8 y
      = mlp2 H A w3 (rowOf b4) w5 (rowOf b6) w7 (rowOf b8) i := by
  obtain ⟨p, q, rfl⟩ : ∃ (p : Fin 2000) (q : Fin 128), y = ix2 p q := ⟨y 0, y 1, eq_ix2 y⟩
  rw [idx_of_block t h p q i h0 h1, pay2_apply, mlp2_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 grid points: the row-blocked windows (first layer's output, its aggregate,
    the result) are at block (t, 0), the weights and biases at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem rows_le (t : Fin cfg1.N) : t.val * 2000 + 2000 ≤ 50000 := by
  have ht : t.val < 25 := t.isLt
  omega

/-- The second layer's perceptron and projection of the arrays the region is entered with. -/
abbrev G (c : Dev nD) : S50000x128.Idx → EReal :=
  mlp2 (V c main_v18) (V c main_v28) (V c main_v29) (rowOf (V c main_v32)) (V c main_v30) (rowOf (V c main_v33))
    (V c main_v31) (rowOf (V c main_v34))

/-- The first layer's output's block at point t is its rows 2000·t …. -/
theorem blk_h (c : Dev nD) (t : Fin cfg1.N) : iblk1 V c 0 t = rowsAt 2000 t.val (rows_le t) (V c main_v18) := by
  obtain ⟨e0, e1, -⟩ := idx_facts t
  funext y
  show V c main_v18 (((cfg1.win 0).blk t).view.emb y) = V c main_v18 _
  refine congrArg (V c main_v18) (funext fun a => Fin.ext ?_)
  match a with
  | ⟨0, _⟩ => show win1_0.index t (0 : Fin 2) * 2000 + 1 * (y 0).val = t.val * 2000 + (y 0).val; rw [e0]; omega
  | ⟨1, _⟩ => show win1_0.index t (1 : Fin 2) * 64 + 1 * (y 1).val = (y 1).val; rw [e1]; omega

/-- The aggregate's block at point t is rows 2000·t … of the aggregate. -/
theorem blk_a (c : Dev nD) (t : Fin cfg1.N) : iblk1 V c 1 t = rowsAt 2000 t.val (rows_le t) (V c main_v28) := by
  obtain ⟨-, -, e0, e1, -⟩ := idx_facts t
  funext y
  show V c main_v28 (((cfg1.win 1).blk t).view.emb y) = V c main_v28 _
  refine congrArg (V c main_v28) (funext fun a => Fin.ext ?_)
  match a with
  | ⟨0, _⟩ => show win1_1.index t (0 : Fin 2) * 2000 + 1 * (y 0).val = t.val * 2000 + (y 0).val; rw [e0]; omega
  | ⟨1, _⟩ => show win1_1.index t (1 : Fin 2) * 64 + 1 * (y 1).val = (y 1).val; rw [e1]; omega

/-- The first weight matrix is fetched whole. -/
theorem blk_wa (c : Dev nD) (t : Fin cfg1.N) : iblk1 V c 2 t = V c main_v29 := by
  obtain ⟨-, -, -, -, e0, e1, -⟩ := idx_facts t
  funext y
  show V c main_v29 (((cfg1.win 2).blk t).view.emb y) = V c main_v29 y
  refine congrArg (V c main_v29) (funext fun a => Fin.ext ?_)
  match a with
  | ⟨0, _⟩ => show win1_2.index t (0 : Fin 2) * 64 + 1 * (y 0).val = (y 0).val; rw [e0]; omega
  | ⟨1, _⟩ => show win1_2.index t (1 : Fin 2) * 256 + 1 * (y 1).val = (y 1).val; rw [e1]; omega

/-- The first bias row is fetched whole. -/
theorem blk_ba (c : Dev nD) (t : Fin cfg1.N) : iblk1 V c 3 t = V c main_v32 := by
  obtain ⟨-, -, -, -, -, -, e0, e1, -⟩ := idx_facts t
  funext y
  show V c main_v32 (((cfg1.win 3).blk t).view.emb y) = V c main_v32 y
  refine congrArg (V c main_v32) (funext fun a => Fin.ext ?_)
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

/-- The second weight matrix is fetched whole. -/
theorem blk_wb (c : Dev nD) (t : Fin cfg1.N) : iblk1 V c 4 t = V c main_v30 := by
  obtain ⟨-, -, -, -, -, -, -, -, e0, e1, -⟩ := idx_facts t
  funext y
  show V c main_v30 (((cfg1.win 4).blk t).view.emb y) = V c main_v30 y
  refine congrArg (V c main_v30) (funext fun a => Fin.ext ?_)
  match a with
  | ⟨0, _⟩ => show win1_4.index t (0 : Fin 2) * 256 + 1 * (y 0).val = (y 0).val; rw [e0]; omega
  | ⟨1, _⟩ => show win1_4.index t (1 : Fin 2) * 256 + 1 * (y 1).val = (y 1).val; rw [e1]; omega

/-- The second bias row is fetched whole. -/
theorem blk_bb (c : Dev nD) (t : Fin cfg1.N) : iblk1 V c 5 t = V c main_v33 := by
  obtain ⟨-, -, -, -, -, -, -, -, -, -, e0, e1, -⟩ := idx_facts t
  funext y
  show V c main_v33 (((cfg1.win 5).blk t).view.emb y) = V c main_v33 y
  refine congrArg (V c main_v33) (funext fun a => Fin.ext ?_)
  match a with
  | ⟨0, _⟩ => show win1_5.index t (0 : Fin 2) * 1 + 1 * (y 0).val = (y 0).val; rw [e0]; omega
  | ⟨1, _⟩ => show win1_5.index t (1 : Fin 2) * 256 + 1 * (y 1).val = (y 1).val; rw [e1]; omega

/-- The projection matrix is fetched whole. -/
theorem blk_wl (c : Dev nD) (t : Fin cfg1.N) : iblk1 V c 6 t = V c main_v31 := by
  obtain ⟨-, -, -, -, -, -, -, -, -, -, -, -, e0, e1, -⟩ := idx_facts t
  funext y
  show V c main_v31 (((cfg1.win 6).blk t).view.emb y) = V c main_v31 y
  refine congrArg (V c main_v31) (funext fun a => Fin.ext ?_)
  match a with
  | ⟨0, _⟩ => show win1_6.index t (0 : Fin 2) * 256 + 1 * (y 0).val = (y 0).val; rw [e0]; omega
  | ⟨1, _⟩ => show win1_6.index t (1 : Fin 2) * 128 + 1 * (y 1).val = (y 1).val; rw [e1]; omega

/-- The projection's bias row is fetched whole. -/
theorem blk_bl (c : Dev nD) (t : Fin cfg1.N) : iblk1 V c 7 t = V c main_v34 := by
  obtain ⟨-, -, -, -, -, -, -, -, -, -, -, -, -, -, e0, e1, -⟩ := idx_facts t
  funext y
  show V c main_v34 (((cfg1.win 7).blk t).view.emb y) = V c main_v34 y
  refine congrArg (V c main_v34) (funext fun a => Fin.ext ?_)
  match a with
  | ⟨0, _⟩ => show win1_7.index t (0 : Fin 2) * 1 + 1 * (y 0).val = (y 0).val; rw [e0]; omega
  | ⟨1, _⟩ => show win1_7.index t (1 : Fin 2) * 128 + 1 * (y 1).val = (y 1).val; rw [e1]; omega

/-- What point t writes back is block t of the function of the whole arrays. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  unfold out1_8
  rw [View.canon_unit_zero hz]
  simp only [View.ld_unit_zero (S := S2000x64) hz, View.ld_unit_zero (S := S64x256) hz, View.ld_unit_zero (S := S1x256) hz,
    View.ld_unit_zero (S := S256x256) hz, View.ld_unit_zero (S := S256x128) hz, View.ld_unit_zero (S := S1x128) hz]
  rw [blk_h, blk_a, blk_wa, blk_ba, blk_wb, blk_bb, blk_wl, blk_bl]
  obtain ⟨-, -, -, -, -, -, -, -, -, -, -, -, -, -, -, -, e0, e1⟩ := idx_facts t
  funext y
  refine pay2_block t.val (rows_le t) (V c main_v18) (V c main_v28) (V c main_v29) (V c main_v32) (V c main_v30)
    (V c main_v33) (V c main_v31) (V c main_v34) y (((cfg1.win 8).blk t).view.emb y) ?_ ?_
  · show win1_8.index t (0 : Fin 2) * 2000 + 1 * (y 0).val = t.val * 2000 + (y 0).val
    rw [e0]; omega
  · show win1_8.index t (1 : Fin 2) * 128 + 1 * (y 1).val = (y 1).val
    rw [e1]; omega

/-- An index of the result array is in point t's block iff each coordinate is in the block's range on its axis. -/
theorem mem_blk (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v35).slice (win1_8.rect t)).set ↔ _
  rw [View.set_slice_whole, Rect.mem_set_unit]
  exact Iff.rfl

/-- The 25 blocks tile the result: row r is in block r / 2000. -/
theorem cover (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  let t : Fin cfg1.N := ⟨(i 0).val / 2000, by show (i 0).val / 2000 < 25; omega⟩
  have htv : t.val = (i 0).val / 2000 := rfl
  obtain ⟨-, -, -, -, -, -, -, -, -, -, -, -, -, -, -, -, e0, e1⟩ := idx_facts t
  refine ⟨t, flush1_8 t, ?_⟩
  rw [mem_blk]
  intro a
  match a with
  | ⟨0, _⟩ =>
    show win1_8.index t (0 : Fin 2) * 2000 ≤ (i 0).val ∧ (i 0).val < win1_8.index t (0 : Fin 2) * 2000 + 2000
    rw [e0, htv]; omega
  | ⟨1, _⟩ =>
    show win1_8.index t (1 : Fin 2) * 128 ≤ (i 1).val ∧ (i 1).val < win1_8.index t (1 : Fin 2) * 128 + 128
    rw [e1]; omega

/-- After the region the result array is the second layer's perceptron and projection of the arrays the region was entered
    with. -/
theorem final (c : Dev nD) : (dat1 V c).arrAt 8 cfg1.N = G V c :=
  (dat1 V c).arrAt_eq_of_cover 8 (G V c) (fun t _ => flushed_eq V c t) (cover)

end Cert.KernelIdeal.Region2

end
-- ==== Proof.Aggregate.lean ====
/-
  The neighbour aggregation both programs share, and the whole network as one function of the arguments.

  The edge list is a [2, 500000] array of node numbers: row 0 the source of each edge, row 1 its destination.  A layer's
  aggregate of a feature matrix X gathers, for every edge, the row of X at the edge's source (a negative source counted from
  the end, as jnp indexing does) and adds it into the row of a zero matrix at the edge's destination.  Both programs compute
  it with the same host operations — the same gather and the same accumulating scatter — so it is named here once as a
  function of the edge list and the feature matrix and is never opened: all the proof needs is that equal feature matrices
  have equal aggregates.

  The network is then:  firstLayer = layer 1 of (x, aggregate of x);  result = layer 2 of (firstLayer, aggregate of firstLayer).
-/
import proofs.«134292_j13211319402646_1_alg».proof.Proof.Gen.KernelIdeal
import proofs.«134292_j13211319402646_1_alg».proof.Proof.GinSpec

noncomputable section

namespace Cert.KernelIdeal.Net

open Idealize.ShloMosaic Cert.KernelIdeal Cert.KernelIdeal.Gen Cert.Gin

/-- Row 0 of the edge list: each edge's source node. -/
def srcOf (E : (⟨S2x500000, .i32⟩ : BufTy).Contents (Elt Ideal)) : (⟨S500000, .i32⟩ : BufTy).Contents (Elt Ideal) :=
  shapeCast S500000 (extractStridedSlice S1x500000 ![0, 0] E slices_S2x500000_S1x500000_0_0) shapeCasts_S1x500000_S500000

/-- Row 1 of the edge list: each edge's destination node. -/
def dstOf (E : (⟨S2x500000, .i32⟩ : BufTy).Contents (Elt Ideal)) : (⟨S500000, .i32⟩ : BufTy).Contents (Elt Ideal) :=
  shapeCast S500000 (extractStridedSlice S1x500000 ![1, 0] E slices_S2x500000_S1x500000_1_0) shapeCasts_S1x500000_S500000

/-- A node number counted from the end when negative: s + 50000 where s < 0, else s. -/
def wrap (s : (⟨S500000, .i32⟩ : BufTy).Contents (Elt Ideal)) : (⟨S500000, .i32⟩ : BufTy).Contents (Elt Ideal) :=
  select (cmpi .slt s (broadcastInDim S500000 ![] bcast_S_S500000 (constantI S_ 32 0#32)))
    (addi s (broadcastInDim S500000 ![] bcast_S_S500000 (constantI S_ 32 50000#32))) s

/-- The aggregate of a [50000, 128] feature matrix: the rows at the edges' sources added into zeros at the edges'
    destinations. -/
def agg128 (s d : (⟨S500000, .i32⟩ : BufTy).Contents (Elt Ideal)) (X : (⟨S50000x128, .f32⟩ : BufTy).Contents (Elt Ideal)) :
    (⟨S50000x128, .f32⟩ : BufTy).Contents (Elt Ideal) :=
  Host.scatterAdd (F := Ideal) scatter_S50000x128_S500000x1_S500000x128_1_0_0_1
    (broadcastInDim S50000x128 ![] bcast_S_S50000x128 (constant (F := Ideal) S_ .f32 0x00000000#32))
    (broadcastInDim S500000x1 ![0] bcast_S500000_S500000x1_0 d)
    (Host.gather gather_S50000x128_S500000x1_S500000x128_1_0_n_n_0_1_1128 X
      (broadcastInDim S500000x1 ![0] bcast_S500000_S500000x1_0 (wrap s)))

/-- The aggregate of a [50000, 64] feature matrix, by the same operations. -/
def agg64 (s d : (⟨S500000, .i32⟩ : BufTy).Contents (Elt Ideal)) (H : (⟨S50000x64, .f32⟩ : BufTy).Contents (Elt Ideal)) :
    (⟨S50000x64, .f32⟩ : BufTy).Contents (Elt Ideal) :=
  Host.scatterAdd (F := Ideal) scatter_S50000x64_S500000x1_S500000x64_1_0_0_1
    (broadcastInDim S50000x64 ![] bcast_S_S50000x64 (constant (F := Ideal) S_ .f32 0x00000000#32))
    (broadcastInDim S500000x1 ![0] bcast_S500000_S500000x1_0 d)
    (Host.gather gather_S50000x64_S500000x1_S500000x64_1_0_n_n_0_1_164 H
      (broadcastInDim S500000x1 ![0] bcast_S500000_S500000x1_0 (wrap s)))

/-- The first layer's output: the perceptron of the features and their aggregate. -/
def firstLayer (x : S50000x128.Idx → EReal) (E : (⟨S2x500000, .i32⟩ : BufTy).Contents (Elt Ideal)) (w1a : S128x64.Idx → EReal)
    (b1a : S64.Idx → EReal) (w1b : S64x64.Idx → EReal) (b1b : S64.Idx → EReal) : S50000x64.Idx → EReal :=
  mlp1 x (agg128 (srcOf E) (dstOf E) x) w1a b1a w1b b1b

/-- The network's result: the second layer and the projection of the first layer's output and its aggregate. -/
def network (x : S50000x128.Idx → EReal) (E : (⟨S2x500000, .i32⟩ : BufTy).Contents (Elt Ideal)) (w1a : S128x64.Idx → EReal)
    (b1a : S64.Idx → EReal) (w1b : S64x64.Idx → EReal) (b1b : S64.Idx → EReal) (w2a : S64x256.Idx → EReal)
    (b2a : S256.Idx → EReal) (w2b : S256x256.Idx → EReal) (b2b : S256.Idx → EReal) (wl : S256x128.Idx → EReal)
    (bl : S128.Idx → EReal) : S50000x128.Idx → EReal :=
  mlp2 (firstLayer x E w1a b1a w1b b1b) (agg64 (srcOf E) (dstOf E) (firstLayer x E w1a b1a w1b b1b)) w2a b2a w2b b2b wl bl

end Cert.KernelIdeal.Net

end
-- ==== Proof.HostReads.lean ====
/-
  What the two stretches of host operations leave in the buffers the kernels read.

  Before the first region the host splits the edge list into sources and destinations, forms the aggregate of the features,
  rounds the first layer's two weight matrices to bf16 (the identity on the extended reals) and reshapes its two bias vectors
  to one-row matrices.  Between the regions it forms the aggregate of the first region's output — from the sources and
  destinations the first stretch left — rounds the three remaining weight matrices and reshapes the three remaining bias
  vectors.  Each buffer is read back through the operations of its stretch; a buffer a stretch does not write holds what it
  held before.
-/
import proofs.«134292_j13211319402646_1_alg».proof.Proof.Gen.KernelIdeal.Frame
import proofs.«134292_j13211319402646_1_alg».proof.Proof.Aggregate
import Idealize.ShloMosaic.Lib.StableHlo.Run

set_option maxRecDepth 16384

noncomputable section

namespace Cert.KernelIdeal.HostReads

open Idealize.ShloMosaic Idealize.ShloMosaic.TcCoe Idealize.SL.Sem Idealize.ShloMosaic.StableHlo
open Cert.KernelIdeal Cert.KernelIdeal.Gen Cert.KernelIdeal.Net

variable (m : (ℓ : Loc nD τ sig) → Buf (Elt Ideal) ℓ) (ρ : Dev nD → PrngReg)

/-! ## The first stretch, from the launch memory -/

theorem first_x (c : Dev nD) : W1 m ρ c (Proc.devRef .tc main_arg0) = m ((c : Thread nD τ).loc main_arg0) := by
  show StableHlo.after hostOps0 (W0 m ρ c) (Proc.devRef .tc main_arg0) = _
  after_results_simp <;> rfl

theorem first_src (c : Dev nD) : W1 m ρ c (Proc.devRef .tc main_v1) = srcOf (m ((c : Thread nD τ).loc main_arg1)) := by
  show StableHlo.after hostOps0 (W0 m ρ c) (Proc.devRef .tc main_v1) = _
  after_results_simp <;> rfl

theorem first_dst (c : Dev nD) : W1 m ρ c (Proc.devRef .tc main_v3) = dstOf (m ((c : Thread nD τ).loc main_arg1)) := by
  show StableHlo.after hostOps0 (W0 m ρ c) (Proc.devRef .tc main_v3) = _
  after_results_simp <;> rfl

theorem first_agg (c : Dev nD) : W1 m ρ c (Proc.devRef .tc main_v13)
    = agg128 (srcOf (m ((c : Thread nD τ).loc main_arg1))) (dstOf (m ((c : Thread nD τ).loc main_arg1)))
        (m ((c : Thread nD τ).loc main_arg0)) := by
  show StableHlo.after hostOps0 (W0 m ρ c) (Proc.devRef .tc main_v13) = _
  after_results_simp <;> rfl

theorem first_wa (c : Dev nD) : W1 m ρ c (Proc.devRef .tc main_v14)
    = (truncf (F := Ideal) .bf16 (m ((c : Thread nD τ).loc main_arg3) : FVec Ideal S128x64 .f32) bitsLt_bf16_f32 : FVec Ideal S128x64 .bf16) := by
  show StableHlo.after hostOps0 (W0 m ρ c) (Proc.devRef .tc main_v14) = _
  after_results_simp <;> rfl

theorem first_wb (c : Dev nD) : W1 m ρ c (Proc.devRef .tc main_v15)
    = (truncf (F := Ideal) .bf16 (m ((c : Thread nD τ).loc main_arg5) : FVec Ideal S64x64 .f32) bitsLt_bf16_f32 : FVec Ideal S64x64 .bf16) := by
  show StableHlo.after hostOps0 (W0 m ρ c) (Proc.devRef .tc main_v15) = _
  after_results_simp <;> rfl

theorem first_ba (c : Dev nD) : W1 m ρ c (Proc.devRef .tc main_v16)
    = shapeCast S1x64 (m ((c : Thread nD τ).loc main_arg4)) shapeCasts_S64_S1x64 := by
  show StableHlo.after hostOps0 (W0 m ρ c) (Proc.devRef .tc main_v16) = _
  after_results_simp <;> rfl

theorem first_bb (c : Dev nD) : W1 m ρ c (Proc.devRef .tc main_v17)
    = shapeCast S1x64 (m ((c : Thread nD τ).loc main_arg6)) shapeCasts_S64_S1x64 := by
  show StableHlo.after hostOps0 (W0 m ρ c) (Proc.devRef .tc main_v17) = _
  after_results_simp <;> rfl

theorem first_w2a (c : Dev nD) : W1 m ρ c (Proc.devRef .tc main_arg7) = m ((c : Thread nD τ).loc main_arg7) := by
  show StableHlo.after hostOps0 (W0 m ρ c) (Proc.devRef .tc main_arg7) = _
  after_results_simp <;> rfl
theorem first_b2a (c : Dev nD) : W1 m ρ c (Proc.devRef .tc main_arg8) = m ((c : Thread nD τ).loc main_arg8) := by
  show StableHlo.after hostOps0 (W0 m ρ c) (Proc.devRef .tc main_arg8) = _
  after_results_simp <;> rfl
theorem first_w2b (c : Dev nD) : W1 m ρ c (Proc.devRef .tc main_arg9) = m ((c : Thread nD τ).loc main_arg9) := by
  show StableHlo.after hostOps0 (W0 m ρ c) (Proc.devRef .tc main_arg9) = _
  after_results_simp <;> rfl
theorem first_b2b (c : Dev nD) : W1 m ρ c (Proc.devRef .tc main_arg10) = m ((c : Thread nD τ).loc main_arg10) := by
  show StableHlo.after hostOps0 (W0 m ρ c) (Proc.devRef .tc main_arg10) = _
  after_results_simp <;> rfl
theorem first_wl (c : Dev nD) : W1 m ρ c (Proc.devRef .tc main_arg11) = m ((c : Thread nD τ).loc main_arg11) := by
  show StableHlo.after hostOps0 (W0 m ρ c) (Proc.devRef .tc main_arg11) = _
  after_results_simp <;> rfl
theorem first_bl (c : Dev nD) : W1 m ρ c (Proc.devRef .tc main_arg12) = m ((c : Thread nD τ).loc main_arg12) := by
  show StableHlo.after hostOps0 (W0 m ρ c) (Proc.devRef .tc main_arg12) = _
  after_results_simp <;> rfl

/-! ## The second stretch, from the first region's exit contents -/

theorem second_h (c : Dev nD) : W3 m ρ c (Proc.devRef .tc main_v18) = W2 m ρ c (Proc.devRef .tc main_v18) := by
  show StableHlo.after hostOps1 (W2 m ρ c) (Proc.devRef .tc main_v18) = _
  after_results_simp <;> rfl

theorem second_agg (c : Dev nD) : W3 m ρ c (Proc.devRef .tc main_v28)
    = agg64 (W2 m ρ c (Proc.devRef .tc main_v1)) (W2 m ρ c (Proc.devRef .tc main_v3)) (W2 m ρ c (Proc.devRef .tc main_v18)) := by
  show StableHlo.after hostOps1 (W2 m ρ c) (Proc.devRef .tc main_v28) = _
  after_results_simp <;> rfl

theorem second_wa (c : Dev nD) : W3 m ρ c (Proc.devRef .tc main_v29)
    = (truncf (F := Ideal) .bf16 (W2 m ρ c (Proc.devRef .tc main_arg7) : FVec Ideal S64x256 .f32) bitsLt_bf16_f32 : FVec Ideal S64x256 .bf16) := by
  show StableHlo.after hostOps1 (W2 m ρ c) (Proc.devRef .tc main_v29) = _
  after_results_simp <;> rfl

theorem second_wb (c : Dev nD) : W3 m ρ c (Proc.devRef .tc main_v30)
    = (truncf (F := Ideal) .bf16 (W2 m ρ c (Proc.devRef .tc main_arg9) : FVec Ideal S256x256 .f32) bitsLt_bf16_f32 : FVec Ideal S256x256 .bf16) := by
  show StableHlo.after hostOps1 (W2 m ρ c) (Proc.devRef .tc main_v30) = _
  after_results_simp <;> rfl

theorem second_wl (c : Dev nD) : W3 m ρ c (Proc.devRef .tc main_v31)
    = (truncf (F := Ideal) .bf16 (W2 m ρ c (Proc.devRef .tc main_arg11) : FVec Ideal S256x128 .f32) bitsLt_bf16_f32 : FVec Ideal S256x128 .bf16) := by
  show StableHlo.after hostOps1 (W2 m ρ c) (Proc.devRef .tc main_v31) = _
  after_results_simp <;> rfl

theorem second_ba (c : Dev nD) : W3 m ρ c (Proc.devRef .tc main_v32)
    = shapeCast S1x256 (W2 m ρ c (Proc.devRef .tc main_arg8)) shapeCasts_S256_S1x256 := by
  show StableHlo.after hostOps1 (W2 m ρ c) (Proc.devRef .tc main_v32) = _
  after_results_simp <;> rfl

theorem second_bb (c : Dev nD) : W3 m ρ c (Proc.devRef .tc main_v33)
    = shapeCast S1x256 (W2 m ρ c (Proc.devRef .tc main_arg10)) shapeCasts_S256_S1x256 := by
  show StableHlo.after hostOps1 (W2 m ρ c) (Proc.devRef .tc main_v33) = _
  after_results_simp <;> rfl

theorem second_bl (c : Dev nD) : W3 m ρ c (Proc.devRef .tc main_v34)
    = shapeCast S1x128 (W2 m ρ c (Proc.devRef .tc main_arg12)) shapeCasts_S128_S1x128 := by
  show StableHlo.after hostOps1 (W2 m ρ c) (Proc.devRef .tc main_v34) = _
  after_results_simp <;> rfl

end Cert.KernelIdeal.HostReads

end
-- ==== Proof.RunAll.lean ====
/-
  The idealized kernel program's run with every buffer named.

  The program is four segments: a stretch of host operations, the first kernel's region, a second stretch of host operations,
  the second kernel's region.  Every weakly fair execution from a memory with zero counters terminates without a fault, and
  in the final state every buffer that is not scoped to a region holds the contents the segments compose to: the launch
  memory taken through the first stretch's operations, then the first region's arrays replaced by what its write-backs
  leave, then the second stretch's operations, then the second region's arrays replaced likewise (`W4`).  The frame claim
  reads only the argument buffers out of this final state; the value claim reads the result buffer, so the run is stated
  here once with all of them.
-/
import proofs.«134292_j13211319402646_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    contents the four segments compose to. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Whole

end
-- ==== Proof.LibRowVector.lean ====
/-
  A vector as a one-row matrix.

  A host program hands a bias vector [b] to a kernel as the matrix [1, b] (a reshape: the row-major position is kept), so
  entry (0, q) of the matrix is entry q of the vector.  Nothing here mentions a program.
-/
import Idealize.ShloMosaic.Lib.Pipeline.Value
import Idealize.ShloMosaic.Lib.ValueIdx

noncomputable section

namespace Cert.RowVector

open Idealize.ShloMosaic Idealize.ShloMosaic.ValueIdx

/-- A `[b]` vector reshaped to `[1, b]` reads, at `(0, q)`, the vector's entry `q`. -/
theorem shapeCast_b_1b_apply {α : Type} {b : ℕ} (v : (⟨1, ![b]⟩ : Shape).Idx → α)
    (h : (⟨1, ![b]⟩ : Shape).ShapeCasts ⟨2, ![1, b]⟩) (u : Fin 1) (q : Fin b) :
    shapeCast ⟨2, ![1, b]⟩ v h (ix2 u q) = v (ix1 q) :=
  shapeCast_apply v h _ _ (by
    have hu : u.val = 0 := by omega
    rw [Shape.rowMajor_val_one, Shape.rowMajor_val_two]
    show q.val = u.val * b + q.val
    rw [hu, Nat.zero_mul, Nat.zero_add])

end Cert.RowVector

end
-- ==== Proof.KernelValue.lean ====
/-
  The idealized kernel program's result is the network.

  After the first region its output array is the first layer's perceptron of what the first stretch of host operations left:
  the features, their aggregate, the two weight matrices (rounded to bf16: unchanged on the extended reals) and the two bias
  vectors (as one-row matrices, read back as vectors) — that is `firstLayer` of the arguments.  The second stretch forms the
  aggregate of that array from the same sources and destinations, and after the second region the result array is the second
  layer's perceptron and projection of the two — `network` of the arguments.  The run then ends with the result buffer at `network`
  and the argument buffers as launched.
-/
import proofs.«134292_j13211319402646_1_alg».proof.Proof.Region1
import proofs.«134292_j13211319402646_1_alg».proof.Proof.Region2
import proofs.«134292_j13211319402646_1_alg».proof.Proof.HostReads
import proofs.«134292_j13211319402646_1_alg».proof.Proof.RunAll
import proofs.«134292_j13211319402646_1_alg».proof.Proof.LibRowVector

set_option maxRecDepth 16384

noncomputable section

namespace Cert.KernelIdeal.NetValue

open Idealize.ShloMosaic Idealize.ShloMosaic.TcCoe Idealize.ShloMosaic.ValueIdx Idealize.SL.Sem
open Cert.KernelIdeal Cert.KernelIdeal.Gen Cert.KernelIdeal.Net Cert.KernelIdeal.HostReads Cert.Gin Cert.RowBlocks

/-- A vector reshaped to a one-row matrix and read back as a vector is the vector. -/
theorem rowOf_reshape {b : ℕ} (v : (⟨1, ![b]⟩ : Shape).Idx → EReal) (h : (⟨1, ![b]⟩ : Shape).ShapeCasts ⟨2, ![1, b]⟩) :
    rowOf (shapeCast ⟨2, ![1, b]⟩ v h) = v := by
  funext j
  obtain ⟨q, rfl⟩ : ∃ q : Fin b, j = ix1 q := ⟨j 0, eq_ix1 j⟩
  exact Cert.RowVector.shapeCast_b_1b_apply v h 0 q

variable (m : (ℓ : Loc nD τ sig) → Buf (Elt Ideal) ℓ) (ρ : Dev nD → PrngReg)

/-- At the first region's exit its output array is the first layer's output. -/
theorem first_layer (c : Dev nD) :
    W2 m ρ c (Proc.devRef .tc main_v18) = firstLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W2_arr m ρ c 6).trans ?_
  rw [Region1.final (V1 m ρ) c]
  show mlp1 (W1 m ρ c (Proc.devRef .tc main_arg0)) (W1 m ρ c (Proc.devRef .tc main_v13)) (W1 m ρ c (Proc.devRef .tc main_v14))
    (rowOf (W1 m ρ c (Proc.devRef .tc main_v16))) (W1 m ρ c (Proc.devRef .tc main_v15))
    (rowOf (W1 m ρ c (Proc.devRef .tc main_v17))) = _
  rw [first_x, first_agg, first_wa, first_ba, first_wb, first_bb, rowOf_reshape, rowOf_reshape]
  rfl

/-- At the second region's exit the result array is the network of the arguments. -/
theorem result (c : Dev nD) :
    W4 m ρ c (Proc.devRef .tc main_v35) = network (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W4_arr m ρ c 8).trans ?_
  rw [Region2.final (V3 m ρ) c]
  show mlp2 (W3 m ρ c (Proc.devRef .tc main_v18)) (W3 m ρ c (Proc.devRef .tc main_v28)) (W3 m ρ c (Proc.devRef .tc main_v29))
    (rowOf (W3 m ρ c (Proc.devRef .tc main_v32))) (W3 m ρ c (Proc.devRef .tc main_v30))
    (rowOf (W3 m ρ c (Proc.devRef .tc main_v33))) (W3 m ρ c (Proc.devRef .tc main_v31))
    (rowOf (W3 m ρ c (Proc.devRef .tc main_v34))) = _
  rw [second_h, second_agg, second_wa, second_ba, second_wb, second_bb, second_wl, second_bl]
  rw [W2_of_ne m ρ c main_v1 (by decide), W2_of_ne m ρ c main_v3 (by decide), W2_of_ne m ρ c main_arg7 (by decide),
    W2_of_ne m ρ c main_arg8 (by decide), W2_of_ne m ρ c main_arg9 (by decide), W2_of_ne m ρ c main_arg10 (by decide),
    W2_of_ne m ρ c main_arg11 (by decide), W2_of_ne m ρ c main_arg12 (by decide)]
  rw [first_src, first_dst, first_w2a, first_b2a, first_w2b, first_b2b, first_wl, first_bl, first_layer]
  rw [rowOf_reshape, rowOf_reshape, rowOf_reshape]
  rfl

/-- Every weakly fair execution of the idealized kernel program terminates, nothing faulting, with the result buffer at the
    network of the arguments and the argument buffers as launched. -/
theorem run : θ_run defs (onTc (τ := τ) (main (F := Ideal))) ⟨m, fun _ => 0, ρ⟩ (fun r => ∀ c : Dev nD,
      r.2.mem ((c.tc : Thread nD τ).loc main_v35) = network (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v35 (by decide))).trans (result m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c)⟩)
    (Cert.KernelIdeal.Whole.run_all m ρ)

end Cert.KernelIdeal.NetValue

end
-- ==== Proof.LibVecBcast.lean ====
/-
  A vector laid along the rows or down the columns of a matrix by two host broadcasts.

  jnp adds a bias vector [d] to an [n, d] matrix by sending it to [1, d] and then to [n, d] (two broadcast_in_dim, the
  first naming axis 1, the second both axes); a per-row vector [n] written v[:, None] goes to [n, 1] (naming axis 0) and
  then to [n, d].  Read at (p, q) the first is the vector's entry q, the second its entry p.
-/
import Idealize.ShloMosaic.Lib.ValueIdx
import Idealize.ShloMosaic.Lib.Pipeline.Value

noncomputable section

namespace Cert.VecBcast

open Idealize.ShloMosaic Idealize.ShloMosaic.ValueIdx

variable {α : Type} {n d : ℕ}

/-- A vector [d] sent to [1, d] and then to [n, d] reads, at (p, q), its entry q. -/
theorem rowVec_bcast_apply (h1 : (⟨1, ![d]⟩ : Shape).BroadcastsInDim ⟨2, ![1, d]⟩ ![1])
    (h2 : (⟨2, ![1, d]⟩ : Shape).BroadcastsInDim ⟨2, ![n, d]⟩ ![0, 1]) (b : (⟨1, ![d]⟩ : Shape).Idx → α) (p : Fin n) (q : Fin d) :
    broadcastInDim ⟨2, ![n, d]⟩ ![0, 1] h2 (broadcastInDim ⟨2, ![1, d]⟩ ![1] h1 b) (ix2 p q) = b (ix1 q) := by
  have hq : q.val = if d = 1 then 0 else q.val := by
    split
    · have := q.isLt; omega
    · rfl
  rw [broadcastInDim_apply ![0, 1] h2 _ (ix2 p q) (ix2 (0 : Fin 1) q) (fun a => by
    match a with
    | ⟨0, _⟩ => rfl
    | ⟨1, _⟩ => exact hq)]
  exact broadcastInDim_apply ![1] h1 b (ix2 (0 : Fin 1) q) (ix1 q) (fun a => by
    match a with
    | ⟨0, _⟩ => exact hq)

/-- A per-row vector [n] sent to [n, 1] and then to [n, d] reads, at (p, q), its entry p. -/
theorem colVec_bcast_apply (h1 : (⟨1, ![n]⟩ : Shape).BroadcastsInDim ⟨2, ![n, 1]⟩ ![0])
    (h2 : (⟨2, ![n, 1]⟩ : Shape).BroadcastsInDim ⟨2, ![n, d]⟩ ![0, 1]) (v : (⟨1, ![n]⟩ : Shape).Idx → α) (p : Fin n) (q : Fin d) :
    broadcastInDim ⟨2, ![n, d]⟩ ![0, 1] h2 (broadcastInDim ⟨2, ![n, 1]⟩ ![0] h1 v) (ix2 p q) = v (ix1 p) := by
  have hp : p.val = if n = 1 then 0 else p.val := by
    split
    · have := p.isLt; omega
    · rfl
  rw [broadcastInDim_apply ![0, 1] h2 _ (ix2 p q) (ix2 p (0 : Fin 1)) (fun a => by
    match a with
    | ⟨0, _⟩ => exact hp
    | ⟨1, _⟩ => rfl)]
  exact broadcastInDim_apply ![0] h1 v (ix2 p (0 : Fin 1)) (ix1 p) (fun a => by
    match a with
    | ⟨0, _⟩ => exact hp)

end Cert.VecBcast

end
-- ==== Proof.LibHostAffine.lean ====
/-
  A host affine layer and a host relu on the extended reals, read at an entry.

  jnp writes  y @ W + b  as a `dot_general` of an [n, K] by a [K, N] matrix plus the bias vector [N] laid along the rows by
  two broadcasts ([N] to [1, N] to [n, N]); read at (p, q) that is  Σ_k y(p, k) · W(k, q) + b(q).  And  maximum(y, 0.0)  is a
  `maximum` against the scalar zero broadcast to y's shape; read at an index it is  max (y i) 0.  Nothing here mentions a
  program: the product's record is taken in its literal plain form.
-/
import proofs.«134292_j13211319402646_1_alg».proof.Proof.LibPlainMatmul
import proofs.«134292_j13211319402646_1_alg».proof.Proof.LibVecBcast

noncomputable section

namespace Cert.HostAffine

open Idealize.ShloMosaic Idealize.ShloMosaic.ValueIdx

/-- Entry (p, q) of  y @ W + b  on the host:  Σ_k y(p, k) · W(k, q) + b(q). -/
theorem affine_apply {n K N : ℕ} {φ₁ φ₂ : FTy}
    (wf : DotDims.WF (⟨2, ![n, K]⟩ : Shape) (⟨2, ![K, N]⟩ : Shape) (⟨2, ![n, N]⟩ : Shape) [1] [0] [0] [1] [] [])
    (h1 : (⟨1, ![N]⟩ : Shape).BroadcastsInDim ⟨2, ![1, N]⟩ ![1])
    (h2 : (⟨2, ![1, N]⟩ : Shape).BroadcastsInDim ⟨2, ![n, N]⟩ ![0, 1])
    (y : FVec Ideal (⟨2, ![n, K]⟩ : Shape) φ₁) (W : FVec Ideal (⟨2, ![K, N]⟩ : Shape) φ₂)
    (b : FVec Ideal (⟨1, ![N]⟩ : Shape) .f32) (p : Fin n) (q : Fin N) :
    addf (Host.dotGeneral (Cert.PlainMatmul.plain wf) none y W)
        (broadcastInDim ⟨2, ![n, N]⟩ ![0, 1] h2 (broadcastInDim ⟨2, ![1, N]⟩ ![1] h1 b)) (ix2 p q)
      = (∑ k : Fin K, y (ix2 p k) * W (ix2 k q)) + b (ix1 q) := by
  rw [addf_apply, Cert.VecBcast.rowVec_bcast_apply]
  exact congrArg (· + b (ix1 q)) (Cert.PlainMatmul.dotGeneral_apply wf none .single y W p q)

/-- maximum(y, 0.0) on the host at an index:  max (y i) 0. -/
theorem relu_apply {s : Shape} (h : (⟨0, ![]⟩ : Shape).BroadcastsInDim s ![]) (y : FVec Ideal s .f32) (i : s.Idx) :
    maximumf y (broadcastInDim s ![] h (constant (F := Ideal) ⟨0, ![]⟩ .f32 0x00000000#32)) i = max (y i) 0 := by
  rw [maximumf_apply, broadcastInDim_apply ![] h _ i ix0 (fun a => a.elim0), constant_apply, Ideal.ofBits_zero_f32]

end Cert.HostAffine

end
-- ==== Proof.RefValue.lean ====
/-
  The reference's result is the network.

  The reference computes the same two layers on the whole arrays: aggregate, add, affine map, relu, affine map (and a relu
  after the first layer; a third affine map after the second).  Its aggregates are the shared aggregation, by the same host
  operations; each affine map read at (p, q) is  Σ_k y(p, k) · W(k, q) + b(q)  and each relu  max · 0,  so its first layer's
  output is `firstLayer` of the arguments and its result `network` of them, entry by entry.
-/
import proofs.«134292_j13211319402646_1_alg».proof.Proof.Gen.ReferenceIdeal.Read
import proofs.«134292_j13211319402646_1_alg».proof.Proof.Aggregate
import proofs.«134292_j13211319402646_1_alg».proof.Proof.LibHostAffine

set_option maxRecDepth 16384

noncomputable section

namespace Cert.ReferenceIdeal.RefValue

open Idealize.ShloMosaic Idealize.ShloMosaic.ValueIdx
open Cert.ReferenceIdeal Cert.ReferenceIdeal.Gen Cert.ReferenceIdeal.Read Cert.Gin
open Cert.KernelIdeal.Net (srcOf dstOf agg128 agg64 firstLayer network)

/-! ## The affine maps and relus of the reference, at an entry -/

theorem affine1a (y : FVec Ideal S50000x128 .f32) (W : FVec Ideal S128x64 .f32) (b : FVec Ideal S64 .f32) (p : Fin 50000)
    (q : Fin 64) :
    addf (Host.dotGeneral dot_S50000x128_S128x64_S50000x64_1_0_0_1_n_n none y W)
        (broadcastInDim S50000x64 ![0, 1] bcast_S1x64_S50000x64_0_1 (broadcastInDim S1x64 ![1] bcast_S64_S1x64_1 b)) (ix2 p q)
      = dense (fun k => y (ix2 p k)) W b q :=
  Cert.HostAffine.affine_apply dot_S50000x128_S128x64_S50000x64_1_0_0_1_n_n_wf bcast_S64_S1x64_1 bcast_S1x64_S50000x64_0_1 y W b p q

theorem affine1b (y : FVec Ideal S50000x64 .f32) (W : FVec Ideal S64x64 .f32) (b : FVec Ideal S64 .f32) (p : Fin 50000)
    (q : Fin 64) :
    addf (Host.dotGeneral dot_S50000x64_S64x64_S50000x64_1_0_0_1_n_n none y W)
        (broadcastInDim S50000x64 ![0, 1] bcast_S1x64_S50000x64_0_1 (broadcastInDim S1x64 ![1] bcast_S64_S1x64_1 b)) (ix2 p q)
      = dense (fun k => y (ix2 p k)) W b q :=
  Cert.HostAffine.affine_apply dot_S50000x64_S64x64_S50000x64_1_0_0_1_n_n_wf bcast_S64_S1x64_1 bcast_S1x64_S50000x64_0_1 y W b p q

theorem affine2a (y : FVec Ideal S50000x64 .f32) (W : FVec Ideal S64x256 .f32) (b : FVec Ideal S256 .f32) (p : Fin 50000)
    (q : Fin 256) :
    addf (Host.dotGeneral dot_S50000x64_S64x256_S50000x256_1_0_0_1_n_n none y W)
        (broadcastInDim S50000x256 ![0, 1] bcast_S1x256_S50000x256_0_1 (broadcastInDim S1x256 ![1] bcast_S256_S1x256_1 b)) (ix2 p q)
      = dense (fun k => y (ix2 p k)) W b q :=
  Cert.HostAffine.affine_apply dot_S50000x64_S64x256_S50000x256_1_0_0_1_n_n_wf bcast_S256_S1x256_1 bcast_S1x256_S50000x256_0_1 y W b p q

theorem affine2b (y : FVec Ideal S50000x256 .f32) (W : FVec Ideal S256x256 .f32) (b : FVec Ideal S256 .f32) (p : Fin 50000)
    (q : Fin 256) :
    addf (Host.dotGeneral dot_S50000x256_S256x256_S50000x256_1_0_0_1_n_n none y W)
        (broadcastInDim S50000x256 ![0, 1] bcast_S1x256_S50000x256_0_1 (broadcastInDim S1x256 ![1] bcast_S256_S1x256_1 b)) (ix2 p q)
      = dense (fun k => y (ix2 p k)) W b q :=
  Cert.HostAffine.affine_apply dot_S50000x256_S256x256_S50000x256_1_0_0_1_n_n_wf bcast_S256_S1x256_1 bcast_S1x256_S50000x256_0_1 y W b p q

theorem affine2l (y : FVec Ideal S50000x256 .f32) (W : FVec Ideal S256x128 .f32) (b : FVec Ideal S128 .f32) (p : Fin 50000)
    (q : Fin 128) :
    addf (Host.dotGeneral dot_S50000x256_S256x128_S50000x128_1_0_0_1_n_n none y W)
        (broadcastInDim S50000x128 ![0, 1] bcast_S1x128_S50000x128_0_1 (broadcastInDim S1x128 ![1] bcast_S128_S1x128_1 b)) (ix2 p q)
      = dense (fun k => y (ix2 p k)) W b q :=
  Cert.HostAffine.affine_apply dot_S50000x256_S256x128_S50000x128_1_0_0_1_n_n_wf bcast_S128_S1x128_1 bcast_S1x128_S50000x128_0_1 y W b p q

theorem relu64 (y : FVec Ideal S50000x64 .f32) (i : S50000x64.Idx) :
    maximumf y (broadcastInDim S50000x64 ![] bcast_S_S50000x64 (constant (F := Ideal) S_ .f32 0x00000000#32)) i = max (y i) 0 :=
  Cert.HostAffine.relu_apply bcast_S_S50000x64 y i

theorem relu256 (y : FVec Ideal S50000x256 .f32) (i : S50000x256.Idx) :
    maximumf y (broadcastInDim S50000x256 ![] bcast_S_S50000x256 (constant (F := Ideal) S_ .f32 0x00000000#32)) i = max (y i) 0 :=
  Cert.HostAffine.relu_apply bcast_S_S50000x256 y i

/-! ## The stages -/

variable (x0 : (⟨S50000x128, .f32⟩ : BufTy).Contents (Elt Ideal)) (x1 : (⟨S2x500000, .i32⟩ : BufTy).Contents (Elt Ideal))
  (x3 : (⟨S128x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))
  (x7 : (⟨S64x256, .f32⟩ : BufTy).Contents (Elt Ideal)) (x8 : (⟨S256, .f32⟩ : BufTy).Contents (Elt Ideal))
  (x9 : (⟨S256x256, .f32⟩ : BufTy).Contents (Elt Ideal)) (x10 : (⟨S256, .f32⟩ : BufTy).Contents (Elt Ideal))
  (x11 : (⟨S256x128, .f32⟩ : BufTy).Contents (Elt Ideal)) (x12 : (⟨S128, .f32⟩ : BufTy).Contents (Elt Ideal))

/-- The reference's first aggregate is the shared aggregation of the features. -/
theorem agg1_eq : val_main_v13 (F := Ideal) x0 x1 = agg128 (srcOf x1) (dstOf x1) x0 := rfl

/-- The reference's first layer is `firstLayer`. -/
theorem firstLayer_eq : val_main_v26 (F := Ideal) x0 x1 x3 x4 x5 x6 = firstLayer x0 x1 x3 x4 x5 x6 := by
  funext i
  obtain ⟨p, q, rfl⟩ : ∃ (p : Fin 50000) (q : Fin 64), i = ix2 p q := ⟨i 0, i 1, eq_ix2 i⟩
  unfold firstLayer
  rw [mlp1_apply, ← agg1_eq]
  unfold val_main_v26 val_main_v25 val_main_cst_2 val_main_v24 val_main_v23 val_main_v22 val_main_v21 val_main_v20
    val_main_v19 val_main_cst_1 val_main_v18 val_main_v17 val_main_v16 val_main_v15 val_main_v14
  rw [relu64, affine1b]
  unfold mlp1Row
  refine congrArg (fun v => max (dense v x5 x6 q) 0) (funext fun k => ?_)
  rw [relu64, affine1a]
  rfl

/-- The reference's second aggregate is the shared aggregation of its first layer's output. -/
theorem agg2_eq : val_main_v36 (F := Ideal) x0 x1 x3 x4 x5 x6
    = agg64 (srcOf x1) (dstOf x1) (val_main_v26 (F := Ideal) x0 x1 x3 x4 x5 x6) := rfl

/-- The reference's result is `network`. -/
theorem network_eq : val_main_v51 (F := Ideal) x0 x1 x3 x4 x5 x6 x7 x8 x9 x10 x11 x12 = network x0 x1 x3 x4 x5 x6 x7 x8 x9 x10 x11 x12 := by
  funext i
  obtain ⟨p, q, rfl⟩ : ∃ (p : Fin 50000) (q : Fin 128), i = ix2 p q := ⟨i 0, i 1, eq_ix2 i⟩
  unfold network
  rw [mlp2_apply, ← firstLayer_eq, ← agg2_eq]
  unfold val_main_v51 val_main_v50 val_main_v49 val_main_v48 val_main_v47 val_main_v46 val_main_v45 val_main_v44
    val_main_v43 val_main_v42 val_main_cst_6 val_main_v41 val_main_v40 val_main_v39 val_main_v38 val_main_v37
  rw [affine2l]
  unfold mlp2Row
  refine congrArg (fun v => dense v x11 x12 q) (funext fun k' => ?_)
  rw [affine2b]
  refine congrArg (fun v => dense v x9 x10 k') (funext fun k => ?_)
  rw [relu256, affine2a]
  rfl

end Cert.ReferenceIdeal.RefValue

end
-- ==== Proof.lean ====
/-
  A two-layer graph isomorphism network: a kernel program against its jnp reference, equal on the extended reals.

  Both programs take node features x [50000, 128], an edge list [2, 500000] and the weights of two perceptrons and a
  projection.  A layer adds to every node's row the sum of its in-neighbours' rows (a gather along the edges' sources and
  an accumulating scatter to their destinations, done by the same host operations in both programs) and sends the row
  through a perceptron:

    h   = relu( relu( (x + agg x) · W1a + b1a ) · W1b + b1b )
    out = ( relu( (h + agg h) · W2a + b2a ) · W2b + b2b ) · Wl + bl

  The reference computes this on the whole arrays.  The kernel program computes each layer's perceptron in a kernel gridded
  over 25 blocks of 2000 rows, with bf16 roundings of the matrix operands (the identity on the extended reals), the
  aggregates on the host before each kernel.  A perceptron never mixes rows, so what a kernel writes for a block of rows is
  that block of the whole-array perceptron, and the blocks tile the rows; each matrix product, in the kernel and on the host,
  is the plain sum  Σ_k y(p, k) · W(k, q).  No law beyond that is used — the two sides are the same sums of the same terms —
  so the precondition is never opened.

  The modules: GinSpec (the perceptrons row by row), Aggregate (the shared aggregation and the network as one function),
  Body1 / Body2 (a kernel body at an entry), Region1 / Region2 (blocks to whole array), HostReads (the host stretches),
  RunAll (the kernel program's run with every buffer named), KernelValue (the kernel program ends at the network), RefValue
  (so does the reference).
-/
import proofs.«134292_j13211319402646_1_alg».proof.Defs
import proofs.«134292_j13211319402646_1_alg».proof.Proof.Gen.Kernel
import proofs.«134292_j13211319402646_1_alg».proof.Proof.Gen.Kernel.Frame
import proofs.«134292_j13211319402646_1_alg».proof.Proof.Gen.KernelIdeal
import proofs.«134292_j13211319402646_1_alg».proof.Proof.Gen.KernelIdeal.Frame
import proofs.«134292_j13211319402646_1_alg».proof.Proof.Gen.ReferenceIdeal
import proofs.«134292_j13211319402646_1_alg».proof.Proof.Gen.Pre_finite_inputs
import proofs.«134292_j13211319402646_1_alg».proof.Proof.Gen.ReferenceIdeal.Run
import proofs.«134292_j13211319402646_1_alg».proof.Proof.Gen.ReferenceIdeal.Read
import proofs.«134292_j13211319402646_1_alg».proof.Proof.KernelValue
import proofs.«134292_j13211319402646_1_alg».proof.Proof.RefValue

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the result at the network of the arguments, which agree. -/
theorem algebraic : Cert.algebraic_KernelIdeal_ReferenceIdeal := by
  intro m ρ m' ρ' _ hagree
  refine ⟨fun c => Cert.KernelIdeal.Net.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), Cert.KernelIdeal.NetValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, -, h3, h4, h5, h6, h7, h8, h9, h10, h11, h12⟩ := hagree c
  rw [Cert.ReferenceIdeal.Read.val_main_v51_eq, Cert.ReferenceIdeal.RefValue.network_eq, h0, h1, h3, h4, h5, h6, h7, h8, h9,
    h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
